-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) (main_arg1 : FVec F S1048576x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  main_v8
-- ==== Kernel.lean ====
abbrev S1048576x128 : Shape := ⟨2, ![1048576, 128]⟩
abbrev S16x128 : Shape := ⟨2, ![16, 128]⟩
abbrev S8192x128 : Shape := ⟨2, ![8192, 128]⟩
abbrev S8x128 : Shape := ⟨2, ![8, 128]⟩
abbrev S8192 : Shape := ⟨1, ![8192]⟩
abbrev S8192x1 : Shape := ⟨2, ![8192, 1]⟩
abbrev S1024x8x128 : Shape := ⟨3, ![1024, 8, 128]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S16x128, .f32⟩
  | .hbm, ⟨3, _⟩ => ⟨S_, .f32⟩
  | .hbm, ⟨4, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v23 : BitVec 1 := Scalar.cmpi .eq arg1 c63_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  shapeCasts_S8192x128_S1024x8x128 : S8192x128.ShapeCasts S1024x8x128
  reduces_S1024x8x128_S8x128 : S1024x8x128.Reduces [0] S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x128 : Shape := ⟨2, ![1048576, 128]⟩
abbrev S_ : Shape := ⟨0, ![]⟩
abbrev S1048576 : Shape := ⟨1, ![1048576]⟩
abbrev S1048576x1 : Shape := ⟨2, ![1048576, 1]⟩

abbrev nBuf : Space → Nat
  | .hbm => 21
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S_, .f32⟩
  | .hbm, ⟨3, _⟩ => ⟨S1048576, .f32⟩
  | .hbm, ⟨4, _⟩ => ⟨S_, .f32⟩
  | .hbm, ⟨5, _⟩ => ⟨S1048576, .f32⟩
  | .hbm, ⟨6, _⟩ => ⟨S1048576, .f32⟩
  | .hbm, ⟨7, _⟩ => ⟨S1048576x1, .f32⟩
  | .hbm, ⟨8, _⟩ => ⟨S1048576x128, .f32⟩
  | .hbm, ⟨9, _⟩ => ⟨S1048576x128, .f32⟩
  | .hbm, ⟨10, _⟩ => ⟨S1048576x128, .f32⟩
  | .hbm, ⟨11, _⟩ => ⟨S_, .f32⟩
  | .hbm, ⟨12, _⟩ => ⟨S1048576, .f32⟩
  | .hbm, ⟨13, _⟩ => ⟨S1048576x1, .f32⟩
  | .hbm, ⟨14, _⟩ => ⟨S1048576x1, .f32⟩
  | .hbm, ⟨15, _⟩ => ⟨S1048576x128, .f32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S_, .f32⟩
  | .hbm, ⟨20, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  reducesTo_S1048576x128_S_d0_1 : S1048576x128.ReducesTo [0, 1] S_

variable [Facts₀]

class Facts : Prop extends Facts₀ where

variable [Facts]
-- ==== Proof.Spec.lean ====
/-
  The specification both programs are compared against, stated over the extended reals with no
  reference to either program.

  For logits `x` and soft labels `y`, both of shape [1048576, 128], the soft cross-entropy is
      loss = -∑_{r,k} y[r,k] · logSoftmax(x[r,·])[k],
  where logSoftmax(f)[k] = (f k - max f) - log (∑_{k'} exp (f k' - max f)).

  The tiled program does not form this sum directly.  It walks 128 row tiles of 8192 rows; tile `n`
  contributes, at sublane `i` and lane `k`, the sum over `j < 1024` of the entry of row
  `8192 n + 8 j + i`.  Tiles 0..63 accumulate into one [8,128] accumulator, tiles 64..127 into a
  second one (the accumulator restarts at every multiple of 64); the negated accumulators are rows
  0..7 and 8..15 of a [16,128] array, which is finally summed.
-/
import Idealize.ShloMosaic.PureOps.Ideal
import Idealize.ShloMosaic.Lib.ValueIdx

noncomputable section

open scoped BigOperators
open Idealize.ShloMosaic Idealize.ShloMosaic.ValueIdx

namespace Cert.SoftCE

/-- The shape of the two argument arrays. -/
abbrev SArr : Shape := ⟨2, ![1048576, 128]⟩
/-- The shape of the array of negated accumulators. -/
abbrev SOut : Shape := ⟨2, ![16, 128]⟩

/-- A row's maximum, taken from -∞. -/
def rowMax (f : Fin 128 → EReal) : EReal := Finset.univ.fold max ⊥ f

/-- log-softmax of the entry with value `v` inside the row `f`. -/
def logSoftmax (f : Fin 128 → EReal) (v : EReal) : EReal :=
  (v - rowMax f) - Ideal.log (∑ k : Fin 128, Ideal.exp (f k - rowMax f))

/-- Entry (r, k) of `y · logSoftmax x`. -/
def term (x y : SArr.Idx → EReal) (r : Fin 1048576) (k : Fin 128) : EReal :=
  y (ix2 r k) * logSoftmax (fun k' => x (ix2 r k')) (x (ix2 r k))

/-- Row `8192 n + 8 j + i`: sublane `i` of the `j`-th group of eight rows of tile `n`. -/
def rowOf (n : Fin 128) (j : Fin 1024) (i : Fin 8) : Fin 1048576 :=
  ⟨n.val * 8192 + j.val * 8 + i.val, by have := n.isLt; have := j.isLt; have := i.isLt; omega⟩

/-- What tile `n` adds to the accumulator at (i, k). -/
def part (C : Fin 1048576 → Fin 128 → EReal) (n : Fin 128) (i : Fin 8) (k : Fin 128) : EReal :=
  ∑ j : Fin 1024, C (rowOf n j i) k

/-- The accumulator after tile `n`: it restarts at every multiple of 64. -/
def accum (C : Fin 1048576 → Fin 128 → EReal) : (n : ℕ) → n < 128 → Fin 8 → Fin 128 → EReal
  | 0, h => part C ⟨0, h⟩
  | n + 1, h =>
    if (n + 1) % 64 = 0 then part C ⟨n + 1, h⟩
    else fun i k => accum C n (Nat.lt_of_succ_lt h) i k + part C ⟨n + 1, h⟩ i k

/-- The last tile that accumulates into the half holding row `a` of the [16,128] array. -/
def lastTile (a : Fin 16) : Fin 128 := ⟨64 * (a.val / 8) + 63, by have := a.isLt; omega⟩

/-- Entry (a, k) of the [16,128] array: the negated final accumulator of its half. -/
def outArr (C : Fin 1048576 → Fin 128 → EReal) (a : Fin 16) (k : Fin 128) : EReal :=
  -accum C (lastTile a).val (lastTile a).isLt ⟨a.val % 8, Nat.mod_lt _ (by decide)⟩ k

/-- The tiled program's scalar: the sum of the [16,128] array. -/
def tiledLoss (C : Fin 1048576 → Fin 128 → EReal) : EReal :=
  ∑ idx : SOut.Idx, outArr C ⟨(idx 0).val, (idx 0).isLt⟩ ⟨(idx 1).val, (idx 1).isLt⟩

/-- The direct scalar: minus the sum of every entry. -/
def directLoss (C : Fin 1048576 → Fin 128 → EReal) : EReal :=
  -∑ idx : SArr.Idx, C ⟨(idx 0).val, (idx 0).isLt⟩ ⟨(idx 1).val, (idx 1).isLt⟩

end Cert.SoftCE

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.Algebra.lean ====
/-
  The algebra behind the soft cross-entropy specification, over the extended reals.

  1.  When every logit and every label is a real number, every entry of `y · logSoftmax x` is a real
      number: a row's maximum is one of its (real) entries, the sum of the 128 exponentials is a
      positive real, so its logarithm is real, and differences and products of reals are real.

  2.  When every entry `C r k` is a real number, the tiled accumulation and the direct sum give the
      same scalar.  Addition of extended reals is commutative and associative without any hypothesis,
      so re-grouping and re-indexing sums is free; but `-(a + b) = -a + -b` fails for `a = ⊤`, `b = ⊥`,
      so the negation is moved across the sums only for real summands.  The steps:
      * the accumulator after tile `n` is the sum of the contributions of the tiles
        `64 ⌊n / 64⌋, …, n` (induction on `n`), so each half's final accumulator is the sum of its 64
        tiles;
      * negation passes through the (real) sums over the 16 rows and 128 lanes;
      * writing `a = 8 c + i`, the row `8192 (64 c + t) + 8 j + i` has the mixed-radix digits
        `(c, t, j, i)` in the bases `(2, 64, 1024, 8)`, so `(c, t, j, i) ↦ row` runs through every
        row below `1048576` exactly once.
-/
import proofs.«156929_j65231963292461_2_alg».proof.Proof.Spec
import proofs.«156929_j65231963292461_2_alg».proof.Proof.LibSumDigits

noncomputable section

open scoped BigOperators
open Idealize.ShloMosaic Idealize.ShloMosaic.ValueIdx

namespace Cert.SoftCE

namespace Alg

/-! ## Finite sums of real numbers inside the extended reals -/

/-- The inclusion of the reals into the extended reals commutes with finite sums. -/
theorem coe_sum {ι : Type*} (s : Finset ι) (f : ι → ℝ) :
    ∑ i ∈ s, (f i : EReal) = ((∑ i ∈ s, f i : ℝ) : EReal) := by
  induction s using Finset.cons_induction with
  | empty => simp
  | cons a s ha ih => rw [Finset.sum_cons, Finset.sum_cons, ih, EReal.coe_add]

/-- A finite sum of real numbers is a real number. -/
theorem real_sum {ι : Type*} (s : Finset ι) (f : ι → EReal)
    (hf : ∀ i ∈ s, ∃ v : ℝ, f i = (v : EReal)) : ∃ v : ℝ, ∑ i ∈ s, f i = (v : EReal) := by
  choose! g hg using hf
  exact ⟨∑ i ∈ s, g i, by rw [← coe_sum]; exact Finset.sum_congr rfl hg⟩

/-- Negation passes through a finite sum of real numbers. -/
theorem neg_sum_real {ι : Type*} (s : Finset ι) (f : ι → EReal)
    (hf : ∀ i ∈ s, ∃ v : ℝ, f i = (v : EReal)) : -(∑ i ∈ s, f i) = ∑ i ∈ s, -f i := by
  choose! g hg using hf
  have h1 : ∑ i ∈ s, f i = ((∑ i ∈ s, g i : ℝ) : EReal) := by
    rw [← coe_sum]; exact Finset.sum_congr rfl hg
  have h2 : ∑ i ∈ s, -f i = ((∑ i ∈ s, -g i : ℝ) : EReal) := by
    rw [← coe_sum]; exact Finset.sum_congr rfl fun i hi => by rw [hg i hi, EReal.coe_neg]
  rw [h1, h2, ← EReal.coe_neg, Finset.sum_neg_distrib]

/-! ## Every entry of `y · logSoftmax x` is real -/

/-- The maximum of a row of 128 real numbers is a real number: it is above `⊥` because it is at least
    the row's first entry, and below `⊤` because every entry is. -/
theorem rowMax_real (f : Fin 128 → EReal) (hf : ∀ k, ∃ v : ℝ, f k = (v : EReal)) :
    ∃ v : ℝ, rowMax f = (v : EReal) := by
  have h1 : (⊥ : EReal) < rowMax f := by
    obtain ⟨v, hv⟩ := hf 0
    exact (Finset.lt_fold_max _).2 (Or.inr ⟨0, Finset.mem_univ _, by rw [hv]; exact EReal.bot_lt_coe v⟩)
  have h2 : rowMax f < ⊤ := by
    refine (Finset.fold_max_lt _).2 ⟨bot_lt_top, fun k _ => ?_⟩
    obtain ⟨v, hv⟩ := hf k
    rw [hv]; exact EReal.coe_lt_top v
  exact ⟨(rowMax f).toReal, (EReal.coe_toReal h2.ne h1.ne').symm⟩

/-- log-softmax of a real entry inside a row of real numbers is a real number: the sum of the 128
    exponentials is a positive real, so its logarithm is real. -/
theorem logSoftmax_real (f : Fin 128 → EReal) (hf : ∀ k, ∃ v : ℝ, f k = (v : EReal)) (v : EReal)
    (hv : ∃ a : ℝ, v = (a : EReal)) : ∃ w : ℝ, logSoftmax f v = (w : EReal) := by
  obtain ⟨m, hm⟩ := rowMax_real f hf
  obtain ⟨a, rfl⟩ := hv
  choose g hg using hf
  have hsum : ∑ k : Fin 128, Ideal.exp (f k - rowMax f)
      = ((∑ k : Fin 128, Real.exp (g k - m) : ℝ) : EReal) := by
    rw [← coe_sum]
    refine Finset.sum_congr rfl fun k _ => ?_
    rw [hg k, hm, ← EReal.coe_sub, Ideal.exp_coe]
  have hpos : 0 < ∑ k : Fin 128, Real.exp (g k - m) :=
    Finset.sum_pos (fun k _ => Real.exp_pos _) Finset.univ_nonempty
  refine ⟨a - m - Real.log (∑ k : Fin 128, Real.exp (g k - m)), ?_⟩
  unfold logSoftmax
  rw [hsum, hm, Ideal.log_coe, if_neg (not_le.2 hpos), ← EReal.coe_sub, ← EReal.coe_sub]

end Alg

open Alg

/-- With every logit and every label a real number, every entry of y · logSoftmax x is a real number. -/
theorem term_real (x y : SArr.Idx → EReal) (hx : ∀ i, ∃ v : ℝ, x i = (v : EReal))
    (hy : ∀ i, ∃ v : ℝ, y i = (v : EReal)) (r : Fin 1048576) (k : Fin 128) :
    ∃ v : ℝ, term x y r k = (v : EReal) := by
  obtain ⟨w, hw⟩ := logSoftmax_real (fun k' => x (ix2 r k')) (fun k' => hx _) (x (ix2 r k)) (hx _)
  obtain ⟨b, hb⟩ := hy (ix2 r k)
  exact ⟨b * w, by unfold term; rw [hw, hb, EReal.coe_mul]⟩

namespace Alg

/-! ## The accumulator in closed form (no finiteness needed) -/

/-- What tile `n` adds to the accumulator at (i, k), extended by zero to every natural number `n`. -/
def partN (C : Fin 1048576 → Fin 128 → EReal) (n : ℕ) (i : Fin 8) (k : Fin 128) : EReal :=
  if h : n < 128 then part C ⟨n, h⟩ i k else 0

/-- The accumulator after tile `n` is the sum of the contributions of the tiles from the last multiple
    of 64 up to `n`. -/
theorem accum_eq (C : Fin 1048576 → Fin 128 → EReal) (i : Fin 8) (k : Fin 128) (n : ℕ) (h : n < 128) :
    accum C n h i k = ∑ t ∈ Finset.range (n % 64 + 1), partN C (64 * (n / 64) + t) i k := by
  induction n with
  | zero => simp [accum, partN]
  | succ n ih =>
    by_cases h0 : (n + 1) % 64 = 0
    · have e : 64 * ((n + 1) / 64) + 0 = n + 1 := by omega
      rw [accum, if_pos h0, h0, zero_add, Finset.sum_range_one, e, partN, dif_pos h]
    · have e1 : (n + 1) % 64 = n % 64 + 1 := by omega
      have e2 : (n + 1) / 64 = n / 64 := by omega
      have e3 : 64 * (n / 64) + (n % 64 + 1) = n + 1 := by omega
      rw [accum, if_neg h0, e1, e2, Finset.sum_range_succ, ← ih (Nat.lt_of_succ_lt h), e3, partN,
        dif_pos h]

/-- The final accumulator of the half holding row `a` of the [16,128] array, at sublane `a % 8` and
    lane `k`: the sum over that half's 64 tiles and over the 1024 groups of eight rows. -/
def half (C : Fin 1048576 → Fin 128 → EReal) (a : Fin 16) (k : Fin 128) : EReal :=
  ∑ t : Fin 64, ∑ j : Fin 1024,
    C (rowOf ⟨64 * (a.val / 8) + t.val, by have := a.isLt; have := t.isLt; omega⟩ j
      ⟨a.val % 8, Nat.mod_lt _ (by decide)⟩) k

/-- Entry (a, k) of the [16,128] array is minus the sum over the 64 tiles of its half. -/
theorem outArr_eq (C : Fin 1048576 → Fin 128 → EReal) (a : Fin 16) (k : Fin 128) :
    outArr C a k = -half C a k := by
  have e1 : (lastTile a).val % 64 + 1 = 64 := by simp only [lastTile]; omega
  have e2 : (lastTile a).val / 64 = a.val / 8 := by simp only [lastTile]; omega
  unfold outArr half
  rw [accum_eq, e1, e2, Finset.sum_range]
  congr 1
  refine Finset.sum_congr rfl fun t _ => ?_
  have ht : 64 * (a.val / 8) + t.val < 128 := by have := a.isLt; have := t.isLt; omega
  rw [partN, dif_pos ht]
  rfl

/-- With real entries each half's final accumulator is a real number. -/
theorem half_real (C : Fin 1048576 → Fin 128 → EReal) (hC : ∀ r k, ∃ v : ℝ, C r k = (v : EReal))
    (a : Fin 16) (k : Fin 128) : ∃ v : ℝ, half C a k = (v : EReal) :=
  real_sum _ _ fun _ _ => real_sum _ _ fun _ _ => hC _ _

/-- The two halves' final accumulators, summed over the 16 rows and 128 lanes, add up every entry
    exactly once: with `a = 8 c + i`, the row `8192 (64 c + t) + 8 j + i` is the four-digit numeral
    `(c, t, j, i)` in the bases `(2, 64, 1024, 8)`. -/
theorem sum_half (C : Fin 1048576 → Fin 128 → EReal) :
    ∑ a : Fin 16, ∑ k : Fin 128, half C a k = ∑ r : Fin 1048576, ∑ k : Fin 128, C r k := by
  rw [SumDigits.sum_fin_mul4 (n₁ := 2) (n₂ := 64) (n₃ := 1024) (n₄ := 8) (by norm_num)
      (fun r : Fin 1048576 => ∑ k : Fin 128, C r k),
    SumDigits.sum_fin_mul (m := 2) (n := 8) (by norm_num)
      (fun a : Fin 16 => ∑ k : Fin 128, half C a k)]
  refine Finset.sum_congr rfl fun c _ => ?_
  simp only [half]
  refine (SumDigits.sum_comm4 _).trans ?_
  refine Finset.sum_congr rfl fun t _ => Finset.sum_congr rfl fun j _ =>
    Finset.sum_congr rfl fun i _ => Finset.sum_congr rfl fun k _ => ?_
  congr 1
  refine Fin.ext ?_
  have := c.isLt; have := t.isLt; have := j.isLt; have := i.isLt
  simp only [rowOf]
  omega

end Alg

/-! ## The tiled loss is the direct loss -/

/-- When every entry is a real number the tiled accumulation and the direct sum give the same loss. -/
theorem tiledLoss_eq_directLoss (C : Fin 1048576 → Fin 128 → EReal)
    (hC : ∀ r k, ∃ v : ℝ, C r k = (v : EReal)) : tiledLoss C = directLoss C :=
  calc tiledLoss C = ∑ a : Fin 16, ∑ k : Fin 128, outArr C a k := by
        unfold tiledLoss; rw [sum_idx2]
    _ = ∑ a : Fin 16, ∑ k : Fin 128, -half C a k := by simp only [outArr_eq]
    _ = ∑ a : Fin 16, -∑ k : Fin 128, half C a k :=
        Finset.sum_congr rfl fun a _ => (neg_sum_real _ _ fun k _ => half_real C hC a k).symm
    _ = -∑ a : Fin 16, ∑ k : Fin 128, half C a k :=
        (neg_sum_real _ _ fun a _ => real_sum _ _ fun k _ => half_real C hC a k).symm
    _ = -∑ r : Fin 1048576, ∑ k : Fin 128, C r k := by rw [sum_half]
    _ = directLoss C := by unfold directLoss; rw [sum_idx2]

end Cert.SoftCE

end
-- ==== Proof.Finite.lean ====
/-
  Finiteness of the inputs, read back from the precondition.

  The precondition is the conjunction, over the two [1048576, 128] arrays, of "every entry a satisfies
  |a| < +∞", where |a| = max a (-a) and +∞ is the float with bit pattern 0x7F800000.  Over the extended
  reals that pattern denotes ⊤, and max a (-a) < ⊤ rules out both a = ⊤ (then max a (-a) = ⊤) and
  a = ⊥ (then -a = ⊤), so a is (the image of) a real number.  The conjunction over all entries is a
  reduction by `and` from 1; it is 1 only if every entry's bit is 1.
-/
import proofs.«156929_j65231963292461_2_alg».proof.Proof.Spec
import proofs.«156929_j65231963292461_2_alg».proof.Pre_finite_inputs
import proofs.«156929_j65231963292461_2_alg».proof.Proof.Gen.Pre_finite_inputs
import Idealize.ShloMosaic.Lib.ReduceAll
import Idealize.ShloMosaic.PureOps.Ideal.Laws

noncomputable section

open Idealize.ShloMosaic

namespace Cert.SoftCE

/-- The single-precision pattern 0x7F800000 (sign 0, exponent all ones, significand 0) denotes +∞. -/
theorem f32_inf_bits : Ideal.ofBits .f32 0x7F800000#32 = (⊤ : EReal) := by
  simp [Ideal.ofBits, Ideal.ieee]

/-- An extended real whose absolute value max a (-a) lies strictly below +∞ is a real number:
    at a = ⊥ the second argument of the max is ⊤, at a = ⊤ the first is. -/
theorem real_of_abs_lt_top (a : EReal) (h : max a (-a) < ⊤) : ∃ v : ℝ, a = (v : EReal) := by
  induction a using EReal.rec with
  | bot => simp at h
  | top => simp at h
  | coe v => exact ⟨v, rfl⟩

/-- The comparison bit of |a| < +∞ being 1 says max a (-a) < ⊤. -/
theorem abs_lt_top_of_olt_inf (a : EReal)
    (h : Ideal.cmp .olt (max a (-a)) (Ideal.ofBits .f32 0x7F800000#32) = 1#1) : max a (-a) < ⊤ := by
  rw [f32_inf_bits] at h
  by_contra hn
  simp [Ideal.cmp, hn] at h

/-- Under the precondition that both arrays hold only finite floats, every entry of each is a real number. -/
theorem real_of_finite_inputs [Cert.Pre_finite_inputs.Facts] (x y : SArr.Idx → EReal)
    (h : Cert.Pre_finite_inputs.fn (F := Ideal) x y = fun _ => 1#1) :
    (∀ i, ∃ v : ℝ, x i = (v : EReal)) ∧ (∀ i, ∃ v : ℝ, y i = (v : EReal)) := by
  -- a rank-0 array has exactly one index
  haveI : Subsingleton Cert.Pre_finite_inputs.S_.Idx := ⟨fun a b => funext fun d => d.elim0⟩
  -- the precondition's one bit is the `and` of the two arrays' "all finite" bits
  have e := congrFun h ValueIdx.ix0
  dsimp only [Cert.Pre_finite_inputs.fn, andi] at e
  obtain ⟨ex, ey⟩ := IntOp.andi_eq_one.1 e
  refine ⟨fun i => ?_, fun i => ?_⟩
  · -- the reduction by `and` over all of x is 1, so the bit of |x i| < +∞ is 1
    have hc := Host.reduce_andi_all _ _ _ _ _ ex i
    exact real_of_abs_lt_top _ (abs_lt_top_of_olt_inf (x i) hc)
  · -- likewise for y
    have hc := Host.reduce_andi_all _ _ _ _ _ ey i
    exact real_of_abs_lt_top _ (abs_lt_top_of_olt_inf (y i) hc)

end Cert.SoftCE

end
-- ==== Proof.Pieces.lean ====
/-
  What each control case of the kernel body leaves behind, as values.

  The body, at a grid point, (i) resets the [8,128] accumulator to zero when the point opens a half
  of the grid, (ii) adds to it the point's tile contribution, and (iii) when the point closes a half,
  writes the negated accumulator to the output block.  The generated frame runs the body once per
  control case and records what every buffer ends with as a list of stored pieces; here those lists
  are read back as the body's pure payloads:
    opening case  : accumulator = contribution added to the zero block;
    middle case   : accumulator = contribution added to the previous accumulator;
    closing case  : the same accumulator, and the output block = zero minus that accumulator.
  Each buffer is written by whole-buffer stores, so its final contents are the last store's payload,
  and a load after a store reads that store's payload.
-/
import proofs.«156929_j65231963292461_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-buffer access. -/
theorem hz : (![0, 0] : Fin 2 → Nat) = fun _ => 0 := funext fun a => by fin_cases a <;> rfl

/-- Middle case: the accumulator ends at the previous accumulator plus the tile's contribution. -/
theorem acc_middle (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : ¬cond0_1 i)
    (x0 : Vec F S8192x128 .f32) (x1 : Vec F S8192x128 .f32) (xs0 : Vec F S8x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S8192x128) hz, View.ld_unit_zero (S := S8x128) hz]

/-- Closing case: the accumulator, as in the middle case. -/
theorem acc_closing (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .f32) (xs0 : Vec F S8x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S8192x128) hz, View.ld_unit_zero (S := S8x128) hz]

/-- Closing case: the output block is zero minus the accumulator just stored. -/
theorem out_closing (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .f32) (xs0 : Vec F S8x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S8x128) _ hz]
  simp only [View.readAt_eq_ld, harg2.read_unread, harg3.read_unread, harg5.read_unread, View.ld_unit_zero (S := S8192x128) hz, View.ld_unit_zero (S := S8x128) hz]

/-- Opening case: the accumulator is the tile's contribution added to the zero block just stored. -/
theorem acc_opening (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8192x128 .f32) (x1 : Vec F S8192x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, View.ld_unit_zero (S := S8192x128) hz]

end Cert.KernelIdeal.Pieces

end
-- ==== Proof.Payload.lean ====
/-
  The three payloads of the soft cross-entropy kernel's body, read at an index over the extended reals.

  The body works on a tile of 8192 rows by 128 lanes.  For every row it takes the maximum over the
  lanes (from -∞), subtracts it, exponentiates, sums over the lanes, takes the logarithm and subtracts
  that too: the row's log-softmax.  It multiplies by the labels, views the [8192,128] tile as
  [1024,8,128] — row 8 j + i becomes (j, i) — and sums over j, adding the result to an [8,128]
  accumulator.  The other two payloads are the zero block the accumulator restarts from and the
  negated accumulator.
-/
import proofs.«156929_j65231963292461_2_alg».proof.Proof.Spec
import proofs.«156929_j65231963292461_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx Cert.KernelIdeal Cert.KernelIdeal.Gen

namespace Cert.SoftCE

/-- Row 8 j + i of a tile: sublane i of the j-th group of eight rows. -/
def subRow (j : Fin 1024) (i : Fin 8) : Fin 8192 := ⟨8 * j.val + i.val, by have := j.isLt; have := i.isLt; omega⟩

/-- The f32 word 0xFF800000 is -∞. -/
theorem ofBits_negInf_f32 : Ideal.ofBits .f32 0xFF800000#32 = ⊥ := by simp [Ideal.ofBits, Ideal.ieee]

/-! ## The non-pointwise operations, each read at coordinates -/

/-- The maximum over the lanes, from -∞, at row r is the row's maximum. -/
theorem laneMax_apply (x : Vec Ideal S8192x128 .f32) (hr : S8192x128.Reduces [1] S8192) (hφ : FKind.Formats .f32)
    (hacc : (0xFF800000#32 : BitVec 32) = FKind.maximumf.neutral .f32 hφ) (r : Fin 8192) :
    multiReduction (F := Ideal) .maximumf [1] S8192 x 0xFF800000#32 hr hφ hacc (ix1 r)
      = rowMax (fun k => x (ix2 r k)) := by
  refine (Ideal.multiReduction_maximumf_single x _ hr hφ hacc (ix1 r)).trans ?_
  show (Finset.univ : Finset (Fin 128)).fold max (Ideal.ofBits .f32 0xFF800000#32) (x ∘ hr.lift (ix1 r)) = _
  have hf : (x ∘ hr.lift (ix1 r)) = fun k : Fin 128 => x (ix2 r k) :=
    funext fun k => congrArg x (funext fun a => Fin.ext (by
      match a with
      | ⟨0, _⟩ => rfl
      | ⟨1, _⟩ => rfl))
  rw [ofBits_negInf_f32, hf]
  rfl

/-- The sum over the lanes at row r. -/
theorem laneSum_apply (e : Vec Ideal S8192x128 .f32) (hr : S8192x128.Reduces [1] S8192) (hφ : FKind.Formats .f32)
    (hacc : (0x00000000#32 : BitVec 32) = FKind.add.neutral .f32 hφ) (r : Fin 8192) :
    multiReduction (F := Ideal) .add [1] S8192 e 0x00000000#32 hr hφ hacc (ix1 r) = ∑ k : Fin 128, e (ix2 r k) := by
  refine (Ideal.multiReduction_add_single e _ hr hφ hacc (ix1 r)).trans ?_
  show ∑ k : Fin 128, e (hr.lift (ix1 r) k) = _
  refine Finset.sum_congr rfl fun k _ => congrArg e (funext fun a => Fin.ext ?_)
  match a with
  | ⟨0, _⟩ => rfl
  | ⟨1, _⟩ => rfl

/-- A vector of 8192 entries viewed as a column [8192,1] reads entry r at (r, 0). -/
theorem column_apply {α : Type} (v : S8192.Idx → α) (hc : S8192.ShapeCasts S8192x1) (r : Fin 8192) (z : Fin 1) :
    shapeCast S8192x1 v hc (ix2 r z) = v (ix1 r) := by
  refine shapeCast_apply v hc (ix2 r z) (ix1 r) ?_
  rw [Shape.rowMajor_val_one, Shape.rowMajor_val_two]
  show r.val = r.val * 1 + z.val
  have := z.isLt
  omega

/-- A column [8192,1] broadcast along the lanes reads, at (r, k), the column's entry (r, 0). -/
theorem lanes_apply {α : Type} (v : S8192x1.Idx → α) (hb : S8192x1.Broadcasts S8192x128) (r : Fin 8192) (k : Fin 128) :
    broadcastTo S8192x128 v hb (ix2 r k) = v (ix2 r (0 : Fin 1)) := by
  refine broadcastTo_apply v hb (ix2 r k) (ix2 r (0 : Fin 1)) fun a => ?_
  match a with
  | ⟨0, _⟩ => rfl
  | ⟨1, _⟩ => rfl

/-- The tile [8192,128] viewed as [1024,8,128] reads (j, i, k) at row 8 j + i, lane k. -/
theorem groups_apply {α : Type} (v : S8192x128.Idx → α) (hc : S8192x128.ShapeCasts S1024x8x128)
    (j : Fin 1024) (i : Fin 8) (k : Fin 128) :
    shapeCast S1024x8x128 v hc (ix3 j i k) = v (ix2 (subRow j i) k) := by
  refine shapeCast_apply v hc (ix3 j i k) (ix2 (subRow j i) k) ?_
  rw [Shape.rowMajor_val_two, Shape.rowMajor_val_three]
  show (8 * j.val + i.val) * 128 + k.val = (j.val * 8 + i.val) * 128 + k.val
  omega

/-- The sum over the groups of eight rows at sublane i, lane k. -/
theorem groupSum_apply (w : Vec Ideal S1024x8x128 .f32) (hr : S1024x8x128.Reduces [0] S8x128) (hφ : FKind.Formats .f32)
    (hacc : (0x00000000#32 : BitVec 32) = FKind.add.neutral .f32 hφ) (i : Fin 8) (k : Fin 128) :
    multiReduction (F := Ideal) .add [0] S8x128 w 0x00000000#32 hr hφ hacc (ix2 i k) = ∑ j : Fin 1024, w (ix3 j i k) := by
  refine (Ideal.multiReduction_add_single w _ hr hφ hacc (ix2 i k)).trans ?_
  show ∑ j : Fin 1024, w (hr.lift (ix2 i k) j) = _
  refine Finset.sum_congr rfl fun j _ => congrArg w (funext fun a => Fin.ext ?_)
  match a with
  | ⟨0, _⟩ => rfl
  | ⟨1, _⟩ => rfl
  | ⟨2, _⟩ => rfl

/-! ## The row statistics as the body forms them: reduce, view as a column, spread along the lanes -/

/-- The row maxima spread along the lanes read, at (r, k), the maximum of row r. -/
theorem rowMaxLanes_apply (x : Vec Ideal S8192x128 .f32) (hr : S8192x128.Reduces [1] S8192) (hφ : FKind.Formats .f32)
    (hacc : (0xFF800000#32 : BitVec 32) = FKind.maximumf.neutral .f32 hφ) (hc : S8192.ShapeCasts S8192x1)
    (hb : S8192x1.Broadcasts S8192x128) (r : Fin 8192) (k : Fin 128) :
    broadcastTo S8192x128 (shapeCast S8192x1 (multiReduction (F := Ideal) .maximumf [1] S8192 x 0xFF800000#32 hr hφ hacc) hc) hb
        (ix2 r k)
      = rowMax (fun k' => x (ix2 r k')) :=
  (lanes_apply _ hb r k).trans ((column_apply _ hc r 0).trans (laneMax_apply x hr hφ hacc r))

/-- The logarithms of the lane sums spread along the lanes read, at (r, k), the logarithm of row r's sum. -/
theorem logSumLanes_apply (e : Vec Ideal S8192x128 .f32) (hr : S8192x128.Reduces [1] S8192) (hφ : FKind.Formats .f32)
    (hacc : (0x00000000#32 : BitVec 32) = FKind.add.neutral .f32 hφ) (hc : S8192.ShapeCasts S8192x1)
    (hb : S8192x1.Broadcasts S8192x128) (r : Fin 8192) (k : Fin 128) :
    broadcastTo S8192x128 (log (shapeCast S8192x1 (multiReduction (F := Ideal) .add [1] S8192 e 0x00000000#32 hr hφ hacc) hc)) hb
        (ix2 r k)
      = Ideal.log (∑ k' : Fin 128, e (ix2 r k')) :=
  (lanes_apply _ hb r k).trans
    (congrArg Ideal.log ((column_apply _ hc r 0).trans (laneSum_apply e hr hφ hacc r)))

/-- One entry of labels times log-softmax: if M reads the row's maximum along row r and LS reads, at (r, k), the
    logarithm of the row's sum of exp (x0 - M), then x1 * ((x0 - M) - LS) at (r, k) is the label times the
    log-softmax of the entry within its row. -/
theorem entry_apply (x0 x1 M LS : FVec Ideal S8192x128 .f32) (r : Fin 8192) (k : Fin 128)
    (hM : ∀ k' : Fin 128, M (ix2 r k') = rowMax (fun k'' => x0 (ix2 r k'')))
    (hL : LS (ix2 r k) = Ideal.log (∑ k' : Fin 128, exp (subf x0 M) (ix2 r k'))) :
    mulf x1 (subf (subf x0 M) LS) (ix2 r k)
      = x1 (ix2 r k) * logSoftmax (fun k' => x0 (ix2 r k')) (x0 (ix2 r k)) := by
  have hE : ∀ k' : Fin 128, exp (subf x0 M) (ix2 r k')
      = Ideal.exp (x0 (ix2 r k') - rowMax (fun k'' => x0 (ix2 r k''))) := fun k' =>
    congrArg (fun m => Ideal.exp (x0 (ix2 r k') - m)) (hM k')
  show x1 (ix2 r k) * ((x0 (ix2 r k) - M (ix2 r k)) - LS (ix2 r k)) = _
  rw [hM k, hL, Finset.sum_congr rfl fun k' _ => hE k']
  rfl

/-- Adding to the accumulator the sum, over the groups of eight rows, of a tile w viewed as [1024,8,128]. -/
theorem accumulate_apply (w : Vec Ideal S8192x128 .f32) (acc : Vec Ideal S8x128 .f32)
    (hc : S8192x128.ShapeCasts S1024x8x128) (hr : S1024x8x128.Reduces [0] S8x128) (hφ : FKind.Formats .f32)
    (hacc : (0x00000000#32 : BitVec 32) = FKind.add.neutral .f32 hφ) (hs : S8x128.ShapeCasts S8x128)
    (i : Fin 8) (k : Fin 128) :
    shapeCast S8x128
        (addf acc (multiReduction (F := Ideal) .add [0] S8x128 (shapeCast S1024x8x128 w hc) 0x00000000#32 hr hφ hacc)) hs
        (ix2 i k)
      = acc (ix2 i k) + ∑ j : Fin 1024, w (ix2 (subRow j i) k) := by
  rw [shapeCast_self]
  show acc (ix2 i k) + _ = _
  refine congrArg (acc (ix2 i k) + ·) ?_
  refine (groupSum_apply _ hr hφ hacc i k).trans ?_
  exact Finset.sum_congr rfl fun j _ => groups_apply w hc j i k

/-! ## The three payloads -/

/-- The block the accumulator restarts from is zero. -/
theorem pay1_apply (idx : S8x128.Idx) : k0_pay1 (F := Ideal) idx = 0 := by
  unfold k0_pay1
  rw [shapeCast_self]
  exact Ideal.ofBits_zero_f32

/-- The accumulating payload at sublane i, lane k: the accumulator plus, over the 1024 groups of eight rows, the label
    times the log-softmax of the entry of row 8 j + i, lane k. -/
theorem pay2_apply (x0 x1 : Vec Ideal S8192x128 .f32) (acc : Vec Ideal S8x128 .f32) (i : Fin 8) (k : Fin 128) :
    k0_pay2 (F := Ideal) x0 x1 acc (ix2 i k)
      = acc (ix2 i k) + ∑ j : Fin 1024,
          x1 (ix2 (subRow j i) k) * logSoftmax (fun k' => x0 (ix2 (subRow j i) k')) (x0 (ix2 (subRow j i) k)) := by
  unfold k0_pay2
  refine (accumulate_apply _ acc _ _ _ _ _ i k).trans ?_
  refine congrArg (acc (ix2 i k) + ·) (Finset.sum_congr rfl fun j _ => ?_)
  exact entry_apply x0 x1 _ _ (subRow j i) k
    (fun k' => rowMaxLanes_apply x0 _ _ _ _ _ (subRow j i) k')
    (logSumLanes_apply _ _ _ _ _ _ (subRow j i) k)

/-- The last payload is the negated accumulator. -/
theorem pay3_apply (v : Vec Ideal S8x128 .f32) (idx : S8x128.Idx) : k0_pay3 (F := Ideal) v idx = -v idx := by
  unfold k0_pay3
  show Ideal.ofBits .f32 0x00000000#32 - v idx = -v idx
  rw [Ideal.ofBits_zero_f32, zero_sub]

end Cert.SoftCE

end
-- ==== Proof.TiledValue.lean ====
/-
  The tiled program's value: what its result buffer holds after the run, as one function of the
  two argument arrays, over the extended reals.

  Grid point t (0 ≤ t < 128) sees rows 8192 t … 8192 t + 8191 of both arrays.  Its body adds to
  the [8,128] accumulator, at (i, k), the sum over j < 1024 of the entry of row 8192 t + 8 j + i;
  the accumulator restarts from zero at t = 0 and t = 64, so after point t it holds the sum of the
  contributions of the tiles of t's half up to t (`acc_eq`, by induction on the point).  Points 63
  and 127 write zero minus the accumulator to rows 0..7 and 8..15 of the [16,128] output array;
  those two blocks cover it (`out_final`).  The host line after the region sums that array from
  zero (`result_eq`).
-/
import proofs.«156929_j65231963292461_2_alg».proof.Proof.Pieces
import proofs.«156929_j65231963292461_2_alg».proof.Proof.Payload
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.TiledValue

open Cert.KernelIdeal Cert.KernelIdeal.Gen Cert.SoftCE

variable (m : (ℓ : Loc nD τ sig) → Buf (Elt Ideal) ℓ) (ρ : Dev nD → PrngReg)

/-- The logits and the labels as the region finds them. -/
abbrev X (c : Dev nD) : SArr.Idx → EReal := V m c main_arg0
abbrev Y (c : Dev nD) : SArr.Idx → EReal := V m c main_arg1

/-- The entries y · logSoftmax x of the arrays the region finds. -/
abbrev C (c : Dev nD) : Fin 1048576 → Fin 128 → EReal := term (X m c) (Y m c)

/-- The logits' and the labels' tiles at point t. -/
abbrev xb (c : Dev nD) (t : Fin cfg0.N) : Vec Ideal S8192x128 .f32 := iblk m c 0 t
abbrev yb (c : Dev nD) (t : Fin cfg0.N) : Vec Ideal S8192x128 .f32 := iblk m c 1 t

/-- The grid has 128 points. -/
theorem lt128 {n : ℕ} (h : n < cfg0.N) : n < 128 := lt_of_lt_of_eq h (show cfg0.N = 128 from N_0)

/-- The block index maps, decided over the grid: input tile t is row block t; the output block is
    the half t / 64. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 64 ∧ win0_2.index t (1 : Fin 2) = 0 :=
  (by decide +kernel : ∀ t : Fin grid0.N, _)

/-- Entry (q, k) of the logits' tile at point t is entry (8192 t + q, k) of the logits. -/
theorem xblock_apply (c : Dev nD) (t : Fin cfg0.N) (q : Fin 8192) (k : Fin 128) (r : Fin 1048576)
    (hr : r.val = t.val * 8192 + q.val) :
    xb m c t (ix2 q k) = X m c (ix2 r k) := by
  obtain ⟨e0, e1, -⟩ := idx_facts t
  unfold xb iblk
  rw [View.read_apply]
  show V m c main_arg0 (((cfg0.win 0).blk t).view.emb (ix2 q k)) = V m c main_arg0 (ix2 r k)
  refine congrArg (V m c main_arg0) ?_
  funext a; apply Fin.ext
  match a with
  | ⟨0, _⟩ => show win0_0.index t (0 : Fin 2) * 8192 + 1 * q.val = r.val; rw [e0, hr]; omega
  | ⟨1, _⟩ => show win0_0.index t (1 : Fin 2) * 128 + 1 * k.val = k.val; rw [e1]; omega

/-- The same for the labels. -/
theorem yblock_apply (c : Dev nD) (t : Fin cfg0.N) (q : Fin 8192) (k : Fin 128) (r : Fin 1048576)
    (hr : r.val = t.val * 8192 + q.val) :
    yb m c t (ix2 q k) = Y m c (ix2 r k) := by
  obtain ⟨-, -, e0, e1, -⟩ := idx_facts t
  unfold yb iblk
  rw [View.read_apply]
  show V m c main_arg1 (((cfg0.win 1).blk t).view.emb (ix2 q k)) = V m c main_arg1 (ix2 r k)
  refine congrArg (V m c main_arg1) ?_
  funext a; apply Fin.ext
  match a with
  | ⟨0, _⟩ => show win0_1.index t (0 : Fin 2) * 8192 + 1 * q.val = r.val; rw [e0, hr]; omega
  | ⟨1, _⟩ => show win0_1.index t (1 : Fin 2) * 128 + 1 * k.val = k.val; rw [e1]; omega

/-- The sum over the 1024 row groups of tile t, at (i, k), is the tile's contribution. -/
theorem tile_part (c : Dev nD) (t : Fin cfg0.N) (i : Fin 8) (k : Fin 128) :
    (∑ j : Fin 1024, yb m c t (ix2 (subRow j i) k)
        * logSoftmax (fun k' => xb m c t (ix2 (subRow j i) k'))
            (xb m c t (ix2 (subRow j i) k)))
      = part (C m c) ⟨t.val, lt128 t.isLt⟩ i k := by
  unfold part
  refine Finset.sum_congr rfl fun j _ => ?_
  have hr : (rowOf ⟨t.val, lt128 t.isLt⟩ j i).val = t.val * 8192 + (subRow j i).val := by
    show t.val * 8192 + j.val * 8 + i.val = t.val * 8192 + (8 * j.val + i.val); omega
  show _ = Y m c (ix2 (rowOf ⟨t.val, lt128 t.isLt⟩ j i) k)
      * logSoftmax (fun k' => X m c (ix2 (rowOf ⟨t.val, lt128 t.isLt⟩ j i) k')) (X m c (ix2 (rowOf ⟨t.val, lt128 t.isLt⟩ j i) k))
  rw [yblock_apply m c t (subRow j i) k _ hr, xblock_apply m c t (subRow j i) k _ hr]
  refine congrArg (fun f => _ * logSoftmax f _) ?_
  funext k'
  exact xblock_apply m c t (subRow j i) k' _ hr

/-- A point that opens a half leaves the tile's contribution in the accumulator. -/
theorem step_opening (c : Dev nD) (t : Fin cfg0.N) (i : Fin 8) (k : Fin 128) :
    k0_pay2 (F := Ideal) (xb m c t) (yb m c t) (k0_pay1 (F := Ideal)) (ix2 i k)
      = part (C m c) ⟨t.val, lt128 t.isLt⟩ i k := by
  refine (pay2_apply (xb m c t) (yb m c t) (k0_pay1 (F := Ideal)) i k).trans ?_
  rw [pay1_apply, zero_add]
  exact tile_part m c t i k

/-- Any other point adds the tile's contribution to what the accumulator held. -/
theorem step_adding (c : Dev nD) (t : Fin cfg0.N) (acc : Vec Ideal S8x128 .f32) (i : Fin 8) (k : Fin 128) :
    k0_pay2 (F := Ideal) (xb m c t) (yb m c t) acc (ix2 i k)
      = acc (ix2 i k) + part (C m c) ⟨t.val, lt128 t.isLt⟩ i k := by
  refine (pay2_apply (xb m c t) (yb m c t) acc i k).trans ?_
  exact congrArg (acc (ix2 i k) + ·) (tile_part m c t i k)

/-- THE ACCUMULATOR after point n is the specification's, by induction on the point. -/
theorem acc_eq (c : Dev nD) : ∀ (n : ℕ) (h : n < cfg0.N) (i : Fin 8) (k : Fin 128),
    (outsAt0 m c n h).2 (ix2 i k) = accum (C m c) n (lt128 h) i k
  | 0, h, i, k => by
    rw [outsAt0_A m c ⟨0, h⟩ rfl (by show ¬(0 : ℕ) % 64 = 63; decide)]
    dsimp only
    rw [Pieces.acc_opening]
    exact step_opening m c ⟨0, h⟩ i k
  | n + 1, h, i, k => by
    by_cases h0 : (n + 1) % 64 = 0
    · have h1 : ¬(n + 1) % 64 = 63 := by omega
      rw [outsAt0_A m c ⟨n + 1, h⟩ h0 h1]
      dsimp only
      rw [Pieces.acc_opening]
      refine (step_opening m c ⟨n + 1, h⟩ i k).trans ?_
      show _ = accum (C m c) (n + 1) (lt128 h) i k
      rw [accum, if_pos h0]
    · have ih := acc_eq c n (Nat.lt_of_succ_lt h) i k
      by_cases h1 : (n + 1) % 64 = 63
      · rw [outsAt0_C m c ⟨n + 1, h⟩ h0 h1]
        dsimp only
        rw [Pieces.acc_closing]
        refine (step_adding m c ⟨n + 1, h⟩ _ i k).trans ?_
        show (outsAt0 m c n _).2 (ix2 i k) + _ = accum (C m c) (n + 1) (lt128 h) i k
        rw [ih, accum, if_neg h0]
      · rw [outsAt0_B m c ⟨n + 1, h⟩ h0 h1]
        dsimp only
        rw [Pieces.acc_middle]
        refine (step_adding m c ⟨n + 1, h⟩ _ i k).trans ?_
        show (outsAt0 m c n _).2 (ix2 i k) + _ = accum (C m c) (n + 1) (lt128 h) i k
        rw [ih, accum, if_neg h0]

/-- Equal arguments give equal accumulators. -/
theorem accum_congr (D : Fin 1048576 → Fin 128 → EReal) {n n' : ℕ} (h : n < 128) (h' : n' < 128) (e : n = n')
    {i i' : Fin 8} (ei : i = i') {k k' : Fin 128} (ek : k = k') : accum D n h i k = accum D n' h' i' k' := by
  subst e ei ek; rfl

/-- The [16,128] array of negated final accumulators, as the specification states it. -/
abbrev outG (c : Dev nD) : S16x128.Idx → EReal :=
  fun idx => outArr (C m c) ⟨(idx 0).val, (idx 0).isLt⟩ ⟨(idx 1).val, (idx 1).isLt⟩

/-- WHAT A CLOSING POINT WRITES BACK is its block of that array: point t closes the half t / 64, whose
    rows are 8 (t / 64) … 8 (t / 64) + 7, and t is that half's last tile. -/
theorem flushed_eq (c : Dev nD) (t : Fin cfg0.N) (hf : (cfg0.win 2).flush t = true) :
    (dats m 0 c).flushed 2 t = ((cfg0.win 2).blk t).view.read (Elt Ideal) (outG m c) := by
  have h63 : t.val % 64 = 63 := (flush0_2 t).mp hf
  have h0 : ¬t.val % 64 = 0 := by omega
  have hN : t.val < 128 := lt128 t.isLt
  obtain ⟨-, -, -, -, e0, e1⟩ := idx_facts t
  show (cfg0.win 2).cut (grid0.coords t) ((dats m 0 c).after 2 t) = _
  rw [after0_2]
  funext y
  obtain ⟨i, k, rfl⟩ : ∃ (i : Fin 8) (k : Fin 128), y = ix2 i k := ⟨y 0, y 1, eq_ix2 y⟩
  have hacc := acc_eq m c t.val t.isLt i k
  rw [outsAt0_C m c t h0 h63] at hacc ⊢
  dsimp only at hacc ⊢
  rw [Pieces.acc_closing] at hacc
  rw [Pieces.out_closing]
  show k0_pay3 (F := Ideal) (k0_pay2 (xb m c t) (yb m c t) _) (ix2 i k) = outG m c (((cfg0.win 2).blk t).view.emb (ix2 i k))
  rw [pay3_apply, hacc]
  show -accum (C m c) t.val (lt128 t.isLt) i k = -accum (C m c) _ _ _ _
  refine congrArg Neg.neg (accum_congr (C m c) _ _ ?_ ?_ ?_)
  · show t.val = 64 * ((win0_2.index t (0 : Fin 2) * 8 + 1 * i.val) / 8) + 63
    rw [e0]; have := i.isLt; omega
  · exact Fin.ext (show i.val = (win0_2.index t (0 : Fin 2) * 8 + 1 * i.val) % 8 from by rw [e0]; have := i.isLt; omega)
  · exact Fin.ext (show k.val = win0_2.index t (1 : Fin 2) * 128 + 1 * k.val from by rw [e1]; omega)

/-- An index of the [16,128] array is in point t's block iff each coordinate is in the block's range. -/
theorem mem_blk (t : Fin cfg0.N) (idx : S16x128.Idx) :
    idx ∈ ((cfg0.win 2).blk t).view.set ↔ ∀ a : Fin 2, win0_2.index t a * S8x128.size a ≤ (idx a).val
      ∧ (idx a).val < win0_2.index t a * S8x128.size a + S8x128.size a := by
  show idx ∈ ((View.whole main_v0).slice (win0_2.rect t)).set ↔ _
  rw [View.set_slice_whole, Rect.mem_set_unit]
  exact Iff.rfl

/-- Every row a is written back by the last point of its half, 64 (a / 8) + 63. -/
theorem cover (idx : S16x128.Idx) :
    ∃ t : Fin cfg0.N, (cfg0.win 2).flush t = true ∧ idx ∈ ((cfg0.win 2).blk t).view.set := by
  have h0 : (idx 0).val < 16 := (idx 0).isLt
  have h1 : (idx 1).val < 128 := (idx 1).isLt
  have hN : cfg0.N = 128 := N_0
  obtain ⟨t, ht⟩ : ∃ t : Fin cfg0.N, t.val = 64 * ((idx 0).val / 8) + 63 := ⟨⟨64 * ((idx 0).val / 8) + 63, by omega⟩, rfl⟩
  obtain ⟨-, -, -, -, e0, e1⟩ := idx_facts t
  refine ⟨t, (flush0_2 t).mpr (by omega), ?_⟩
  rw [mem_blk]
  intro a
  match a with
  | ⟨0, _⟩ =>
    show win0_2.index t (0 : Fin 2) * 8 ≤ (idx 0).val ∧ (idx 0).val < win0_2.index t (0 : Fin 2) * 8 + 8
    rw [e0]; omega
  | ⟨1, _⟩ =>
    show win0_2.index t (1 : Fin 2) * 128 ≤ (idx 1).val ∧ (idx 1).val < win0_2.index t (1 : Fin 2) * 128 + 128
    rw [e1]; omega

/-- THE OUTPUT ARRAY after the region: the negated final accumulators of the two halves. -/
theorem out_final (c : Dev nD) : (dats m 0 c).arrAt 2 cfg0.N = outG m c :=
  (dats m 0 c).arrAt_eq_of_cover 2 (outG m c) (flushed_eq m c) (cover)

/-- THE RESULT: the host line after the region sums that array from zero. -/
theorem result_eq (c : Dev nD) :
    Pipeline.afterTail₀ cfgs (dats m) 0 (V0 m) [hostOps1] c main_v1 = fun _ => tiledLoss (C m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = outG m c := (Pipeline.withArrays_arr spec0 launch0.win.arr_inj c _ _ 2).trans (out_final m c)
  rw [e]
  funext j
  simp only [Host.reduceAdd, Ideal.hostReduceAdd_def]
  rw [Ideal.hostReduceAdd_total reducesTo_S16x128_S_d0_1 (fun b => b.elim0)]
  show Ideal.ofBits .f32 0x00000000#32 + _ = _
  rw [Ideal.ofBits_zero_f32, zero_add]
  rfl

/-- The result buffer is no array of the pipeline. -/
theorem main_v1_rest : main_v1 ∈ Pipeline.restRefs sig (cfgs 0).spec :=
  Pipeline.mem_restRefs_of main_v1 rfl (fun w => by fin_cases w <;> decide)

/-- THE RUN, READ: every weakly fair execution of the tiled program ends with its result buffer at the
    tiled loss of the entries y · logSoftmax x of its two arguments, and the arguments unchanged. -/
theorem run : θ_run defs (onTc (τ := τ) (main (F := Ideal))) ⟨m, fun _ => 0, ρ⟩ fun r => ∀ c : Dev nD,
      r.2.mem ((c.tc : Thread nD τ).loc main_v1)
          = (fun _ => tiledLoss (term (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 main_v1_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.TiledValue

end
-- ==== Proof.RefStages.lean ====
/-
  The reference's value, stage by stage, as pure functions of the two argument arrays.

  For logits x and labels y of shape [1048576, 128] the reference computes the row maxima (a
  max-reduce along the lanes from -∞, joined once more with -∞), the shifted logits x - max, the
  logarithm of each row's sum of exponentials, the log-probabilities (x - max) - log ∑ exp, and the
  negated sum of y · logprob over every entry.
-/
import proofs.«156929_j65231963292461_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The value, stage by stage -/

/-- Each row's maximum: the max-reduce along the lanes from -∞, joined with -∞ once more. -/
def rowMaxes (x : FVec F S1048576x128 .f32) : FVec F S1048576 .f32 :=
  maximumf (broadcastInDim S1048576 ![] bcast_S_S1048576 (constant S_ .f32 0xFF800000#32))
    (Host.reduce FloatOps.maximumf x (constant S_ .f32 0xFF800000#32) reducesTo_S1048576x128_S1048576_d1 h_S_)

/-- The logits with their row's maximum subtracted. -/
def shifted (x : FVec F S1048576x128 .f32) : FVec F S1048576x128 .f32 :=
  subf x (broadcastInDim S1048576x128 ![0, 1] bcast_S1048576x1_S1048576x128_0_1
    (broadcastInDim S1048576x1 ![0] bcast_S1048576_S1048576x1_0 (rowMaxes x)))

/-- The logarithm of each row's sum of exponentials of the shifted logits, as a column. -/
def logSumExp (x : FVec F S1048576x128 .f32) : FVec F S1048576x1 .f32 :=
  Host.log (broadcastInDim S1048576x1 ![0] bcast_S1048576_S1048576x1_0
    (Host.reduceAdd (Host.exp (shifted x)) (constant S_ .f32 0x00000000#32) reducesTo_S1048576x128_S1048576_d1 h_S_))

/-- The log-probabilities: shifted logits minus their row's log-sum-exp. -/
def logProb (x : FVec F S1048576x128 .f32) : FVec F S1048576x128 .f32 :=
  subf (shifted x) (broadcastInDim S1048576x128 ![0, 1] bcast_S1048576x1_S1048576x128_0_1 (logSumExp x))

/-- The loss: minus the sum over every entry of label times log-probability. -/
def result (x y : FVec F S1048576x128 .f32) : FVec F S_ .f32 :=
  Host.negf (Host.reduceAdd (mulf y (logProb x)) (constant S_ .f32 0x00000000#32) reducesTo_S1048576x128_S_d0_1 h_S_)

end Cert.ReferenceIdeal.RefRun

end
-- ==== Proof.RefRun.lean ====
/-
  The reference program's run, read back as a value.

  The reference's @main is a straight line of nineteen host operations (the row-wise log-softmax is
  a called function whose operations stand at the call site), so every weakly fair execution ends
  with each buffer at the composition of the operations before it: the result buffer holds
  `result x y`, the five stages composed, and the arguments are unchanged.
-/
import proofs.«156929_j65231963292461_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations and their run -/

/-- @main's nineteen operations, in order (the called function's operations in its call's place). -/
abbrev ops : List (HloOp τ sig (Elt F)) :=
  [ TRef.nullary (TRef.of (T := ⟨S_, .f32⟩) main_call0_cst) (constant S_ .f32 0xFF800000#32),
    TRef.binary (TRef.of (T := ⟨S1048576x128, .f32⟩) main_arg0) (TRef.of (T := ⟨S_, .f32⟩) main_call0_cst) (TRef.of (T := ⟨S1048576, .f32⟩) main_call0_v0) (fun x v => Host.reduce FloatOps.maximumf x v reducesTo_S1048576x128_S1048576_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_call0_v0) (TRef.of (T := ⟨S1048576, .f32⟩) main_call0_v2) maximumf,
    TRef.unary (TRef.of (T := ⟨S1048576, .f32⟩) main_call0_v2) (TRef.of (T := ⟨S1048576x1, .f32⟩) main_call0_v3) (broadcastInDim S1048576x1 ![0] bcast_S1048576_S1048576x1_0),
    TRef.unary (TRef.of (T := ⟨S1048576x1, .f32⟩) main_call0_v3) (TRef.of (T := ⟨S1048576x128, .f32⟩) main_call0_v4) (broadcastInDim S1048576x128 ![0, 1] bcast_S1048576x1_S1048576x128_0_1),
    TRef.binary (TRef.of (T := ⟨S1048576x128, .f32⟩) main_arg0) (TRef.of (T := ⟨S1048576x128, .f32⟩) main_call0_v4) (TRef.of (T := ⟨S1048576x128, .f32⟩) main_call0_v5) subf,
    TRef.unary (TRef.of (T := ⟨S1048576x128, .f32⟩) main_call0_v5) (TRef.of (T := ⟨S1048576x128, .f32⟩) main_call0_v6) Host.exp,
    TRef.nullary (TRef.of (T := ⟨S_, .f32⟩) main_call0_cst_1) (constant S_ .f32 0x00000000#32),
    TRef.binary (TRef.of (T := ⟨S1048576x128, .f32⟩) main_call0_v6) (TRef.of (T := ⟨S_, .f32⟩) main_call0_cst_1) (TRef.of (T := ⟨S1048576, .f32⟩) main_call0_v7) (fun x v => Host.reduceAdd x v reducesTo_S1048576x128_S1048576_d1 h_S_),
    TRef.unary (TRef.of (T := ⟨S1048576, .f32⟩) main_call0_v7) (TRef.of (T := ⟨S1048576x1, .f32⟩) main_call0_v8) (broadcastInDim S1048576x1 ![0] bcast_S1048576_S1048576x1_0),
    TRef.unary (TRef.of (T := ⟨S1048576x1, .f32⟩) main_call0_v8) (TRef.of (T := ⟨S1048576x1, .f32⟩) main_call0_v9) Host.log,
    TRef.unary (TRef.of (T := ⟨S1048576x1, .f32⟩) main_call0_v9) (TRef.of (T := ⟨S1048576x128, .f32⟩) main_call0_v10) (broadcastInDim S1048576x128 ![0, 1] bcast_S1048576x1_S1048576x128_0_1),
    TRef.binary (TRef.of (T := ⟨S1048576x128, .f32⟩) main_call0_v5) (TRef.of (T := ⟨S1048576x128, .f32⟩) main_call0_v10) (TRef.of (T := ⟨S1048576x128, .f32⟩) main_v0) subf,
    binary main_arg1 main_v0 main_v1 (mulf : (⟨S1048576x128, .f32⟩ : BufTy).Contents (Elt F) → (⟨S1048576x128, .f32⟩ : BufTy).Contents (Elt F) → (⟨S1048576x128, .f32⟩ : BufTy).Contents (Elt F)),
    nullary main_cst (constant S_ .f32 0x00000000#32),
    binary main_v1 main_cst main_v2 ((fun x v => Host.reduceAdd x v reducesTo_S1048576x128_S_d0_1 h_S_) : (⟨S1048576x128, .f32⟩ : BufTy).Contents (Elt F) → (⟨S_, .f32⟩ : BufTy).Contents (Elt F) → (⟨S_, .f32⟩ : BufTy).Contents (Elt F)),
    unary main_v2 main_v3 (Host.negf : (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., unary_bufs_sub ..⟩

/-! A typed reference to a literal buffer carries its contents unchanged in both directions: the
    buffer's declared type is the value's type. One pair of equations per buffer of the called function. -/
theorem toBuf_main_call0_cst (v : (⟨S_, .f32⟩ : BufTy).Contents (Elt F)) :
    (TRef.of (T := ⟨S_, .f32⟩) main_call0_cst).toBuf v = v := id rfl
theorem ofBuf_main_call0_cst (v : (⟨S_, .f32⟩ : BufTy).Contents (Elt F)) :
    (TRef.of (T := ⟨S_, .f32⟩) main_call0_cst).ofBuf v = v := id rfl
theorem toBuf_main_arg0 (v : (⟨S1048576x128, .f32⟩ : BufTy).Contents (Elt F)) :
    (TRef.of (T := ⟨S1048576x128, .f32⟩) main_arg0).toBuf v = v := id rfl
theorem ofBuf_main_arg0 (v : (⟨S1048576x128, .f32⟩ : BufTy).Contents (Elt F)) :
    (TRef.of (T := ⟨S1048576x128, .f32⟩) main_arg0).ofBuf v = v := id rfl
theorem toBuf_main_call0_v0 (v : (⟨S1048576, .f32⟩ : BufTy).Contents (Elt F)) :
    (TRef.of (T := ⟨S1048576, .f32⟩) main_call0_v0).toBuf v = v := id rfl
theorem ofBuf_main_call0_v0 (v : (⟨S1048576, .f32⟩ : BufTy).Contents (Elt F)) :
    (TRef.of (T := ⟨S1048576, .f32⟩) main_call0_v0).ofBuf v = v := id rfl
theorem toBuf_main_call0_cst_0 (v : (⟨S_, .f32⟩ : BufTy).Contents (Elt F)) :
    (TRef.of (T := ⟨S_, .f32⟩) main_call0_cst_0).toBuf v = v := id rfl
theorem ofBuf_main_call0_cst_0 (v : (⟨S_, .f32⟩ : BufTy).Contents (Elt F)) :
    (TRef.of (T := ⟨S_, .f32⟩) main_call0_cst_0).ofBuf v = v := id rfl
theorem toBuf_main_call0_v1 (v : (⟨S1048576, .f32⟩ : BufTy).Contents (Elt F)) :
    (TRef.of (T := ⟨S1048576, .f32⟩) main_call0_v1).toBuf v = v := id rfl
theorem ofBuf_main_call0_v1 (v : (⟨S1048576, .f32⟩ : BufTy).Contents (Elt F)) :
    (TRef.of (T := ⟨S1048576, .f32⟩) main_call0_v1).ofBuf v = v := id rfl
theorem toBuf_main_call0_v2 (v : (⟨S1048576, .f32⟩ : BufTy).Contents (Elt F)) :
    (TRef.of (T := ⟨S1048576, .f32⟩) main_call0_v2).toBuf v = v := id rfl
theorem ofBuf_main_call0_v2 (v : (⟨S1048576, .f32⟩ : BufTy).Contents (Elt F)) :
    (TRef.of (T := ⟨S1048576, .f32⟩) main_call0_v2).ofBuf v = v := id rfl
theorem toBuf_main_call0_v3 (v : (⟨S1048576x1, .f32⟩ : BufTy).Contents (Elt F)) :
    (TRef.of (T := ⟨S1048576x1, .f32⟩) main_call0_v3).toBuf v = v := id rfl
theorem ofBuf_main_call0_v3 (v : (⟨S1048576x1, .f32⟩ : BufTy).Contents (Elt F)) :
    (TRef.of (T := ⟨S1048576x1, .f32⟩) main_call0_v3).ofBuf v = v := id rfl
theorem toBuf_main_call0_v4 (v : (⟨S1048576x128, .f32⟩ : BufTy).Contents (Elt F)) :
    (TRef.of (T := ⟨S1048576x128, .f32⟩) main_call0_v4).toBuf v = v := id rfl
theorem ofBuf_main_call0_v4 (v : (⟨S1048576x128, .f32⟩ : BufTy).Contents (Elt F)) :
    (TRef.of (T := ⟨S1048576x128, .f32⟩) main_call0_v4).ofBuf v = v := id rfl
theorem toBuf_main_call0_v5 (v : (⟨S1048576x128, .f32⟩ : BufTy).Contents (Elt F)) :
    (TRef.of (T := ⟨S1048576x128, .f32⟩) main_call0_v5).toBuf v = v := id rfl
theorem ofBuf_main_call0_v5 (v : (⟨S1048576x128, .f32⟩ : BufTy).Contents (Elt F)) :
    (TRef.of (T := ⟨S1048576x128, .f32⟩) main_call0_v5).ofBuf v = v := id rfl
theorem toBuf_main_call0_v6 (v : (⟨S1048576x128, .f32⟩ : BufTy).Contents (Elt F)) :
    (TRef.of (T := ⟨S1048576x128, .f32⟩) main_call0_v6).toBuf v = v := id rfl
theorem ofBuf_main_call0_v6 (v : (⟨S1048576x128, .f32⟩ : BufTy).Contents (Elt F)) :
    (TRef.of (T := ⟨S1048576x128, .f32⟩) main_call0_v6).ofBuf v = v := id rfl
theorem toBuf_main_call0_cst_1 (v : (⟨S_, .f32⟩ : BufTy).Contents (Elt F)) :
    (TRef.of (T := ⟨S_, .f32⟩) main_call0_cst_1).toBuf v = v := id rfl
theorem ofBuf_main_call0_cst_1 (v : (⟨S_, .f32⟩ : BufTy).Contents (Elt F)) :
    (TRef.of (T := ⟨S_, .f32⟩) main_call0_cst_1).ofBuf v = v := id rfl
theorem toBuf_main_call0_v7 (v : (⟨S1048576, .f32⟩ : BufTy).Contents (Elt F)) :
    (TRef.of (T := ⟨S1048576, .f32⟩) main_call0_v7).toBuf v = v := id rfl
theorem ofBuf_main_call0_v7 (v : (⟨S1048576, .f32⟩ : BufTy).Contents (Elt F)) :
    (TRef.of (T := ⟨S1048576, .f32⟩) main_call0_v7).ofBuf v = v := id rfl
theorem toBuf_main_call0_v8 (v : (⟨S1048576x1, .f32⟩ : BufTy).Contents (Elt F)) :
    (TRef.of (T := ⟨S1048576x1, .f32⟩) main_call0_v8).toBuf v = v := id rfl
theorem ofBuf_main_call0_v8 (v : (⟨S1048576x1, .f32⟩ : BufTy).Contents (Elt F)) :
    (TRef.of (T := ⟨S1048576x1, .f32⟩) main_call0_v8).ofBuf v = v := id rfl
theorem toBuf_main_call0_v9 (v : (⟨S1048576x1, .f32⟩ : BufTy).Contents (Elt F)) :
    (TRef.of (T := ⟨S1048576x1, .f32⟩) main_call0_v9).toBuf v = v := id rfl
theorem ofBuf_main_call0_v9 (v : (⟨S1048576x1, .f32⟩ : BufTy).Contents (Elt F)) :
    (TRef.of (T := ⟨S1048576x1, .f32⟩) main_call0_v9).ofBuf v = v := id rfl
theorem toBuf_main_call0_v10 (v : (⟨S1048576x128, .f32⟩ : BufTy).Contents (Elt F)) :
    (TRef.of (T := ⟨S1048576x128, .f32⟩) main_call0_v10).toBuf v = v := id rfl
theorem ofBuf_main_call0_v10 (v : (⟨S1048576x128, .f32⟩ : BufTy).Contents (Elt F)) :
    (TRef.of (T := ⟨S1048576x128, .f32⟩) main_call0_v10).ofBuf v = v := id rfl
theorem toBuf_main_v0 (v : (⟨S1048576x128, .f32⟩ : BufTy).Contents (Elt F)) :
    (TRef.of (T := ⟨S1048576x128, .f32⟩) main_v0).toBuf v = v := id rfl
theorem ofBuf_main_v0 (v : (⟨S1048576x128, .f32⟩ : BufTy).Contents (Elt F)) :
    (TRef.of (T := ⟨S1048576x128, .f32⟩) main_v0).ofBuf v = v := id rfl

set_option maxHeartbeats 1900000 in
/-- On every device, from any memory with zero counters: every weakly fair execution of @main terminates
    with the result buffer at `result` of the two argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (by
        after_results
        simp only [toBuf_main_call0_cst, ofBuf_main_call0_cst, toBuf_main_arg0, ofBuf_main_arg0, toBuf_main_call0_v0, ofBuf_main_call0_v0, toBuf_main_call0_cst_0, ofBuf_main_call0_cst_0, toBuf_main_call0_v1, ofBuf_main_call0_v1, toBuf_main_call0_v2, ofBuf_main_call0_v2, toBuf_main_call0_v3, ofBuf_main_call0_v3, toBuf_main_call0_v4, ofBuf_main_call0_v4, toBuf_main_call0_v5, ofBuf_main_call0_v5, toBuf_main_call0_v6, ofBuf_main_call0_v6, toBuf_main_call0_cst_1, ofBuf_main_call0_cst_1, toBuf_main_call0_v7, ofBuf_main_call0_v7, toBuf_main_call0_v8, ofBuf_main_call0_v8, toBuf_main_call0_v9, ofBuf_main_call0_v9, toBuf_main_call0_v10, ofBuf_main_call0_v10, toBuf_main_v0, ofBuf_main_v0]
        rw [show launchContents m c (Proc.tc.devRef main_arg0) = m ((c.tc : Thread nD τ).loc main_arg0) from id rfl,
          show launchContents m c (Proc.tc.devRef main_arg1) = m ((c.tc : Thread nD τ).loc main_arg1) from id rfl]
        unfold result logProb logSumExp shifted rowMaxes
        rfl),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.RefRun

end
-- ==== Proof.RefValue.lean ====
/-
  The reference's value read at coordinates.

  Each stage of the reference — the row maxima, the shifted logits, the logarithm of the row sums of
  exponentials, the log-probabilities, the negated total — is read at an index as the extended-real
  expression the specification writes, and the last stage is the specification's direct loss of the
  entries y · logSoftmax x.
-/
import proofs.«156929_j65231963292461_2_alg».proof.Proof.RefStages
import proofs.«156929_j65231963292461_2_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx
open Cert.ReferenceIdeal Cert.ReferenceIdeal.RefRun

namespace Cert.SoftCE.RefSide

/-! ## The operations the stages are made of, read at an index -/

/-- The lanes are the reduced axis: dropping axis 1 of [1048576, 128] leaves [1048576]. -/
theorem reduces_lanes : S1048576x128.Reduces [1] S1048576 := by decide

/-- Row index r with lane k inserted is the entry (r, k). -/
theorem lift_lanes (h : S1048576x128.Reduces [1] S1048576) (r : Fin 1048576) (k : Fin 128) :
    h.lift (ix1 r) k = ix2 r k := by
  funext a
  apply Fin.ext
  match a with
  | ⟨0, _⟩ => rfl
  | ⟨1, _⟩ => rfl

/-- The bit pattern of -∞ is the least extended real. -/
theorem ofBits_neg_inf : Ideal.ofBits .f32 0xFF800000#32 = ⊥ := by simp [Ideal.ofBits, Ideal.ieee]

/-- A host exponential at an index is the exponential of the element. -/
theorem hostExp_apply {s : Shape} (a : FVec Ideal s .f32) (i : s.Idx) : Host.exp a i = Ideal.exp (a i) := rfl
/-- A host logarithm at an index is the logarithm of the element. -/
theorem hostLog_apply {s : Shape} (a : FVec Ideal s .f32) (i : s.Idx) : Host.log a i = Ideal.log (a i) := rfl
/-- A host negation at an index is the negation of the element. -/
theorem hostNegf_apply {s : Shape} (a : FVec Ideal s .f32) (i : s.Idx) : Host.negf a i = -(a i) := rfl

/-- The max-reduce along the lanes from -∞, at row r, is the row's maximum. -/
theorem laneMax_apply (h' : S1048576x128.ReducesTo [1] S1048576) (hu : 0 < S_.numel) (z : SArr.Idx → EReal)
    (r : Fin 1048576) :
    Host.reduce (FloatOps.maximumf (F := Ideal) (φ := .f32)) z (constant S_ .f32 0xFF800000#32) h' hu (ix1 r)
      = rowMax (fun k => z (ix2 r k)) := by
  rw [Host.reduce_eq_fold_single _ z _ h' reduces_lanes hu (ix1 r)]
  unfold rowMax
  rw [constant_apply, ofBits_neg_inf]
  have e : z ∘ reduces_lanes.lift (ix1 r) = fun k => z (ix2 r k) :=
    funext fun k => congrArg z (lift_lanes _ r k)
  rw [e]
  rfl

/-- The float sum along the lanes from 0, at row r, is the sum of the row's entries. -/
theorem laneSum_apply (h' : S1048576x128.ReducesTo [1] S1048576) (hu : 0 < S_.numel) (z : SArr.Idx → EReal)
    (r : Fin 1048576) :
    Host.reduceAdd (F := Ideal) (φ := .f32) z (constant S_ .f32 0x00000000#32) h' hu (ix1 r)
      = ∑ k : Fin 128, z (ix2 r k) := by
  simp only [Host.reduceAdd, Ideal.hostReduceAdd_def]
  rw [Ideal.hostReduceAdd_single h' reduces_lanes, constant_apply, Ideal.ofBits_zero_f32, zero_add]
  exact Finset.sum_congr rfl fun k _ => congrArg z (lift_lanes _ r k)

/-- The float sum over both axes from 0 is the sum of every entry. -/
theorem totalSum_apply (h' : S1048576x128.ReducesTo [0, 1] S_) (hu : 0 < S_.numel) (z : SArr.Idx → EReal)
    (i : S_.Idx) :
    Host.reduceAdd (F := Ideal) (φ := .f32) z (constant S_ .f32 0x00000000#32) h' hu i = ∑ idx : SArr.Idx, z idx := by
  simp only [Host.reduceAdd, Ideal.hostReduceAdd_def]
  rw [Ideal.hostReduceAdd_total h' (fun b => b.elim0), constant_apply, Ideal.ofBits_zero_f32, zero_add]

/-- A scalar broadcast along the rows reads the scalar everywhere. -/
theorem bcastScalar_apply {α : Type} (hb : S_.BroadcastsInDim S1048576 (![] : Fin 0 → Fin S1048576.rank))
    (c : S_.Idx → α) (j : S1048576.Idx) (i : S_.Idx) :
    broadcastInDim S1048576 ![] hb c j = c i :=
  broadcastInDim_apply _ hb c j i (fun a => a.elim0)

/-- A per-row array broadcast to a column reads the row's element. -/
theorem bcastCol_apply {α : Type} (hb : S1048576.BroadcastsInDim S1048576x1 (![0] : Fin 1 → Fin S1048576x1.rank))
    (v : S1048576.Idx → α) (r : Fin 1048576) (c : Fin 1) :
    broadcastInDim S1048576x1 ![0] hb v (ix2 r c) = v (ix1 r) := by
  refine broadcastInDim_apply _ hb v (ix2 r c) (ix1 r) ?_
  intro a
  match a with
  | ⟨0, _⟩ => exact (if_neg (show ¬((1048576 : Nat) = 1) by decide)).symm

/-- A column broadcast along the lanes reads the row's element of the column. -/
theorem bcastLanes_apply {α : Type}
    (hb : S1048576x1.BroadcastsInDim S1048576x128 (![0, 1] : Fin 2 → Fin S1048576x128.rank))
    (v : S1048576x1.Idx → α) (r : Fin 1048576) (k : Fin 128) :
    broadcastInDim S1048576x128 ![0, 1] hb v (ix2 r k) = v (ix2 r 0) := by
  refine broadcastInDim_apply _ hb v (ix2 r k) (ix2 r 0) ?_
  intro a
  match a with
  | ⟨0, _⟩ => exact (if_neg (show ¬((1048576 : Nat) = 1) by decide)).symm
  | ⟨1, _⟩ => exact (if_pos rfl).symm

/-! ## The stages read at coordinates -/

/-- The reference's row maxima are the rows' maxima: joining with -∞ once more changes nothing. -/
theorem rowMaxes_apply (x : SArr.Idx → EReal) (r : Fin 1048576) :
    rowMaxes (F := Ideal) x (ix1 r) = rowMax (fun k => x (ix2 r k)) := by
  unfold rowMaxes
  rw [maximumf_apply, laneMax_apply, bcastScalar_apply _ _ _ ix0, constant_apply, ofBits_neg_inf]
  exact max_bot_left _

/-- The shifted logits are the logits minus their row's maximum. -/
theorem shifted_apply (x : SArr.Idx → EReal) (r : Fin 1048576) (k : Fin 128) :
    shifted (F := Ideal) x (ix2 r k) = x (ix2 r k) - rowMax (fun k' => x (ix2 r k')) := by
  unfold shifted
  rw [subf_apply, bcastLanes_apply, bcastCol_apply, rowMaxes_apply]

/-- The column of logarithms holds, at row r, the logarithm of the row's sum of exponentials of the shifted logits. -/
theorem logSumExp_apply (x : SArr.Idx → EReal) (r : Fin 1048576) :
    logSumExp (F := Ideal) x (ix2 r 0)
      = Ideal.log (∑ k : Fin 128, Ideal.exp (x (ix2 r k) - rowMax (fun k' => x (ix2 r k')))) := by
  unfold logSumExp
  rw [hostLog_apply, bcastCol_apply, laneSum_apply]
  exact congrArg Ideal.log (Finset.sum_congr rfl fun k _ => by rw [hostExp_apply, shifted_apply])

/-- The log-probabilities are the specification's log-softmax of each entry inside its row. -/
theorem logProb_apply (x : SArr.Idx → EReal) (r : Fin 1048576) (k : Fin 128) :
    logProb (F := Ideal) x (ix2 r k) = logSoftmax (fun k' => x (ix2 r k')) (x (ix2 r k)) := by
  unfold logProb logSoftmax
  rw [subf_apply, bcastLanes_apply, shifted_apply, logSumExp_apply]

/-- At the ideal values the reference's result is the direct loss of the entries y · logSoftmax x. -/
theorem ref_result_eq (x y : SArr.Idx → EReal) (i : Cert.ReferenceIdeal.S_.Idx) :
    Cert.ReferenceIdeal.RefRun.result (F := Ideal) x y i = directLoss (term x y) := by
  unfold result directLoss
  rw [hostNegf_apply, totalSum_apply]
  refine congrArg Neg.neg (Finset.sum_congr rfl fun idx _ => ?_)
  rw [mulf_apply]
  have e : idx = ix2 (⟨(idx 0).val, (idx 0).isLt⟩ : Fin 1048576) (⟨(idx 1).val, (idx 1).isLt⟩ : Fin 128) :=
    eq_ix2 (n0 := 1048576) (n1 := 128) idx
  conv_lhs => rw [e]
  rw [logProb_apply]
  rfl

end Cert.SoftCE.RefSide

end
-- ==== Proof.lean ====
/-
  The certificate of the soft cross-entropy kernel against its jnp reference.

  Both programs compute loss = -∑_{r,k} y[r,k] · logSoftmax(x[r,·])[k] for logits x and soft labels y of
  shape [1048576, 128].  The reference forms the log-softmax row by row and negates one big sum.  The
  kernel walks 128 tiles of 8192 rows on a 2 × 64 grid; each tile adds, lane-parallel, its rows' entries
  into an [8,128] accumulator that restarts with each half of the grid, the negated accumulators are the
  two [8,128] blocks of a [16,128] array, and a host sum of that array finishes.

  Over the extended reals the two results are the same number once every entry is known to be a real
  number: re-grouping a sum needs no hypothesis, but moving the negation across a sum does (-(⊤ + ⊥) is
  not -⊤ + -⊥), and the precondition — every input finite — is exactly what makes every logit, hence
  every maximum, exponential, logarithm and product, real.

  The frames of the two kernel programs are the generated ones; the reference's frame is its run with
  the result dropped.  The idealization rewrote nothing, so `preserves` is trivial.
-/
import proofs.«156929_j65231963292461_2_alg».proof.Defs
import proofs.«156929_j65231963292461_2_alg».proof.Proof.Gen.Kernel
import proofs.«156929_j65231963292461_2_alg».proof.Proof.Gen.Kernel.Skeleton
import proofs.«156929_j65231963292461_2_alg».proof.Proof.Gen.Kernel.Launch
import proofs.«156929_j65231963292461_2_alg».proof.Proof.Gen.Kernel.Points
import proofs.«156929_j65231963292461_2_alg».proof.Proof.Gen.Kernel.Frame
import proofs.«156929_j65231963292461_2_alg».proof.Proof.Gen.KernelIdeal
import proofs.«156929_j65231963292461_2_alg».proof.Proof.Gen.KernelIdeal.Skeleton
import proofs.«156929_j65231963292461_2_alg».proof.Proof.Gen.KernelIdeal.Launch
import proofs.«156929_j65231963292461_2_alg».proof.Proof.Gen.KernelIdeal.Points
import proofs.«156929_j65231963292461_2_alg».proof.Proof.Gen.KernelIdeal.Frame
import proofs.«156929_j65231963292461_2_alg».proof.Proof.Gen.ReferenceIdeal
import proofs.«156929_j65231963292461_2_alg».proof.Proof.Gen.Pre_finite_inputs
import proofs.«156929_j65231963292461_2_alg».proof.Proof.Algebra
import proofs.«156929_j65231963292461_2_alg».proof.Proof.Finite
import proofs.«156929_j65231963292461_2_alg».proof.Proof.TiledValue
import proofs.«156929_j65231963292461_2_alg».proof.Proof.RefRun
import proofs.«156929_j65231963292461_2_alg».proof.Proof.RefValue
import Idealize.ShloMosaic.Adequacy
import Idealize.ShloMosaic.Init

noncomputable section

namespace Cert.Proof

open Idealize.ShloMosaic Idealize.ShloMosaic.TcCoe Idealize.SL.Sem Cert.SoftCE

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the ideal values the kernel ends at the tiled loss and the reference at the direct loss of the same
    entries y · logSoftmax x (the arguments agree); the inputs being finite, every entry is real, and the two
    losses are one number. -/
theorem algebraic : Cert.algebraic_KernelIdeal_ReferenceIdeal := by
  intro m ρ m' ρ' hpre hagree
  refine ⟨fun c => fun _ => tiledLoss (term (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.TiledValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  funext i
  refine (RefSide.ref_result_eq _ _ i).trans ?_
  obtain ⟨hx, hy⟩ := real_of_finite_inputs _ _ (hpre c)
  exact (tiledLoss_eq_directLoss _ (term_real _ _ hx hy)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
